-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S16x2x128x128 : Shape := ⟨4, ![16, 2, 128, 128]⟩
abbrev S16x2x128 : Shape := ⟨3, ![16, 2, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S16x2x128x128 : S_.BroadcastsInDim S16x2x128x128 (![] : Fin 0 → Fin S16x2x128x128.rank)
  reducesTo_S16x2x128x128_S_d0_1_2_3 : S16x2x128x128.ReducesTo [0, 1, 2, 3] S_
  bcast_S_S16x2x128 : S_.BroadcastsInDim S16x2x128 (![] : Fin 0 → Fin S16x2x128.rank)
  reducesTo_S16x2x128_S_d0_1_2 : S16x2x128.ReducesTo [0, 1, 2] S_

variable [Facts]

def fn {F : FTy → Type} [FloatOps F] (main_arg0 : FVec F S524288x128 .f32) (main_arg1 : FVec F S16x2x128x128 .f32) (main_arg2 : FVec F S16x2x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S16x2x128x128 .f32 := Host.absf main_arg1
  let main_cst_0 : FVec F S_ .f32 := constant S_ .f32 0x7F800000#32
  let main_v5 : FVec F S16x2x128x128 .f32 := broadcastInDim S16x2x128x128 ![] bcast_S_S16x2x128x128 main_cst_0
  let main_v6 : IVec S16x2x128x128 1 := cmpf .olt main_v4 main_v5
  let main_c_1 : IVec S_ 1 := constantI S_ 1 1#1
  let main_v7 : IVec S_ 1 := (fun x v => Host.reduce IntOp.andi x v reducesTo_S16x2x128x128_S_d0_1_2_3 h_S_) main_v6 main_c_1
  let main_v8 : IVec S_ 1 := andi main_v3 main_v7
  let main_v9 : FVec F S16x2x128 .f32 := Host.absf main_arg2
  let main_cst_2 : FVec F S_ .f32 := constant S_ .f32 0x7F800000#32
  let main_v10 : FVec F S16x2x128 .f32 := broadcastInDim S16x2x128 ![] bcast_S_S16x2x128 main_cst_2
  let main_v11 : IVec S16x2x128 1 := cmpf .olt main_v9 main_v10
  let main_c_3 : IVec S_ 1 := constantI S_ 1 1#1
  let main_v12 : IVec S_ 1 := (fun x v => Host.reduce IntOp.andi x v reducesTo_S16x2x128_S_d0_1_2 h_S_) main_v11 main_c_3
  let main_v13 : IVec S_ 1 := andi main_v8 main_v12
  main_v13
-- ==== Kernel.lean ====
abbrev S524288x128 : Shape := ⟨2, ![524288, 128]⟩
abbrev S16x2x128x128 : Shape := ⟨4, ![16, 2, 128, 128]⟩
abbrev S16x2x128 : Shape := ⟨3, ![16, 2, 128]⟩
abbrev S16x32768x128 : Shape := ⟨3, ![16, 32768, 128]⟩
abbrev S1x8192x128 : Shape := ⟨3, ![1, 8192, 128]⟩
abbrev S1x2x128x128 : Shape := ⟨4, ![1, 2, 128, 128]⟩
abbrev S1x2x128 : Shape := ⟨3, ![1, 2, 128]⟩
abbrev S8192x128 : Shape := ⟨2, ![8192, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 7
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S16x2x128x128, .f32⟩
  | .hbm, ⟨2, _⟩ => ⟨S16x2x128, .f32⟩
  | .hbm, ⟨3, _⟩ => ⟨S16x32768x128, .f32⟩
  | .hbm, ⟨4, _⟩ => ⟨S16x2x128x128, .bf16⟩
  | .hbm, ⟨5, _⟩ => ⟨S16x32768x128, .f32⟩
  | .hbm, ⟨6, _⟩ => ⟨S524288x128, .f32⟩
  | .local _ .vmem, ⟨0, _⟩ => ⟨S1x8192x128, .f32⟩
  | .local _ .vmem, ⟨1, _⟩ => ⟨S1x8192x128, .f32⟩
  | .local _ .vmem, ⟨2, _⟩ => ⟨S1x2x128x128, .bf16⟩
  | .local _ .vmem, ⟨3, _⟩ => ⟨S1x2x128, .f32⟩
  | .local _ .vmem, ⟨4, _⟩ => ⟨S1x8192x128, .f32⟩
  | .local _ .vmem, ⟨5, _⟩ => ⟨S1x8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S524288x128_S16x32768x128 : S524288x128.ShapeCasts S16x32768x128
  bitsLt_bf16_f32 : FTy.bits .bf16 < FTy.bits .f32
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x2x128x128_S1x1x128x128_0_0_0_0 : ∀ a, (![0, 0, 0, 0] : Fin 4 → Nat) a + S1x1x128x128.size a ≤ S1x2x128x128.size a
  h_S1x1x128x128 : 0 < S1x1x128x128.numel
  shapeCasts_S1x1x128x128_S128x128 : S1x1x128x128.ShapeCasts S128x128
  inb_S1x2x128x128_S1x1x128x128_0_1_0_0 : ∀ a, (![0, 1, 0, 0] : Fin 4 → Nat) a + S1x1x128x128.size a ≤ S1x2x128x128.size a
  inb_S1x2x128_S1x1x128_0_0_0 : ∀ a, (![0, 0, 0] : Fin 3 → Nat) a + S1x1x128.size a ≤ S1x2x128.size a
  h_S1x1x128 : 0 < S1x1x128.numel
  shapeCasts_S1x1x128_S128 : S1x1x128.ShapeCasts S128
  inb_S1x2x128_S1x1x128_0_1_0 : ∀ a, (![0, 1, 0] : Fin 3 → Nat) a + S1x1x128.size a ≤ S1x2x128.size a
  shapeCasts_S128_S1x128 : S128.ShapeCasts S1x128
  broadcasts_S1x128_S8192x128 : S1x128.Broadcasts S8192x128
  shapeCasts_S8192x128_S1x8192x128 : S8192x128.ShapeCasts S1x8192x128
  shapeCasts_S16x32768x128_S524288x128 : S16x32768x128.ShapeCasts S524288x128
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S16x32768x128.size a
  hwx0_0 : ∀ i : grid0.Coords, EltTy.bits .f32 = 32 ∨ (Rect.block (s := S16x32768x128) S1x8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2x128x128.size a ≤ S16x2x128x128.size a
  hwx0_1 : ∀ i : grid0.Coords, EltTy.bits .bf16 = 32 ∨ (Rect.block (s := S16x2x128x128) S1x2x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2x128.size a ≤ S16x2x128.size a
  hwx0_2 : ∀ i : grid0.Coords, EltTy.bits .f32 = 32 ∨ (Rect.block (s := S16x2x128) S1x2x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x128.size a ≤ S16x32768x128.size a
  hwx0_3 : ∀ i : grid0.Coords, EltTy.bits .f32 = 32 ∨ (Rect.block (s := S16x32768x128) S1x8192x128.size (cc0_transform_3 i) (hinb0_3 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_v0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S16x2x128x128 : Shape := ⟨4, ![16, 2, 128, 128]⟩
abbrev S16x2x128 : Shape := ⟨3, ![16, 2, 128]⟩
abbrev S16x32768x128 : Shape := ⟨3, ![16, 32768, 128]⟩
abbrev S16x1x128x128 : Shape := ⟨4, ![16, 1, 128, 128]⟩
abbrev S16x128x128 : Shape := ⟨3, ![16, 128, 128]⟩
abbrev S16x1x128 : Shape := ⟨3, ![16, 1, 128]⟩
abbrev S16x128 : Shape := ⟨2, ![16, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S16x2x128x128, .f32⟩
  | .hbm, ⟨2, _⟩ => ⟨S16x2x128, .f32⟩
  | .hbm, ⟨3, _⟩ => ⟨S16x32768x128, .f32⟩
  | .hbm, ⟨4, _⟩ => ⟨S16x1x128x128, .f32⟩
  | .hbm, ⟨5, _⟩ => ⟨S16x128x128, .f32⟩
  | .hbm, ⟨6, _⟩ => ⟨S16x32768x128, .f32⟩
  | .hbm, ⟨7, _⟩ => ⟨S16x1x128, .f32⟩
  | .hbm, ⟨8, _⟩ => ⟨S16x128, .f32⟩
  | .hbm, ⟨9, _⟩ => ⟨S16x1x128, .f32⟩
  | .hbm, ⟨10, _⟩ => ⟨S16x32768x128, .f32⟩
  | .hbm, ⟨11, _⟩ => ⟨S16x32768x128, .f32⟩
  | .hbm, ⟨12, _⟩ => ⟨S_, .f32⟩
  | .hbm, ⟨13, _⟩ => ⟨S16x32768x128, .f32⟩
  | .hbm, ⟨14, _⟩ => ⟨S16x32768x128, .f32⟩
  | .hbm, ⟨15, _⟩ => ⟨S16x1x128x128, .f32⟩
  | .hbm, ⟨16, _⟩ => ⟨S16x128x128, .f32⟩
  | .hbm, ⟨17, _⟩ => ⟨S16x32768x128, .f32⟩
  | .hbm, ⟨18, _⟩ => ⟨S16x1x128, .f32⟩
  | .hbm, ⟨19, _⟩ => ⟨S16x128, .f32⟩
  | .hbm, ⟨20, _⟩ => ⟨S16x1x128, .f32⟩
  | .hbm, ⟨21, _⟩ => ⟨S16x32768x128, .f32⟩
  | .hbm, ⟨22, _⟩ => ⟨S16x32768x128, .f32⟩
  | .hbm, ⟨23, _⟩ => ⟨S_, .f32⟩
  | .hbm, ⟨24, _⟩ => ⟨S16x32768x128, .f32⟩
  | .hbm, ⟨25, _⟩ => ⟨S16x32768x128, .f32⟩
  | .hbm, ⟨26, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_cst : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call1_cst : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S524288x128_S16x32768x128 : S524288x128.ShapeCasts S16x32768x128
  slices_S16x2x128x128_S16x1x128x128_0_0_0_0 : S16x2x128x128.Slices ![0, 0, 0, 0] S16x1x128x128
  shapeCasts_S16x1x128x128_S16x128x128 : S16x1x128x128.ShapeCasts S16x128x128
  slices_S16x2x128_S16x1x128_0_0_0 : S16x2x128.Slices ![0, 0, 0] S16x1x128
  shapeCasts_S16x1x128_S16x128 : S16x1x128.ShapeCasts S16x128
  bcast_S16x128_S16x1x128_0_2 : S16x128.BroadcastsInDim S16x1x128 (![0, 2] : Fin 2 → Fin S16x1x128.rank)
  bcast_S16x1x128_S16x32768x128_0_1_2 : S16x1x128.BroadcastsInDim S16x32768x128 (![0, 1, 2] : Fin 3 → Fin S16x32768x128.rank)
  bcast_S_S16x32768x128 : S_.BroadcastsInDim S16x32768x128 (![] : Fin 0 → Fin S16x32768x128.rank)
  slices_S16x2x128x128_S16x1x128x128_0_1_0_0 : S16x2x128x128.Slices ![0, 1, 0, 0] S16x1x128x128
  slices_S16x2x128_S16x1x128_0_1_0 : S16x2x128.Slices ![0, 1, 0] S16x1x128
  shapeCasts_S16x32768x128_S524288x128 : S16x32768x128.ShapeCasts S524288x128
  dot_S16x32768x128_S16x128x128_S16x32768x128_2_2_1_1_0_0_wf : DotDims.WF S16x32768x128 S16x128x128 S16x32768x128 [2] [2] [1] [1] [0] [0]

variable [Facts₀]

def dot_S16x32768x128_S16x128x128_S16x32768x128_2_2_1_1_0_0 : DotDims S16x32768x128 S16x128x128 S16x32768x128 where
  lhsContracting := [2]
  rhsContracting := [2]
  lhsNonContracting := [1]
  rhsNonContracting := [1]
  lhsBatch := [0]
  rhsBatch := [0]
  wf := dot_S16x32768x128_S16x128x128_S16x32768x128_2_2_1_1_0_0_wf

class Facts : Prop extends Facts₀ where

variable [Facts]
-- ==== Proof.Spec.lean ====
/-
  Sixteen experts, each a stack of two dense layers with a clamp at zero, applied to its own slice of tokens.

  The tokens are an array [16, 32768, 128]: expert e owns the 32768 rows (e, ·, ·), each row a vector of 128 features.
  The weights are [16, 2, 128, 128] (expert, layer, output feature, input feature) and the biases [16, 2, 128]
  (expert, layer, output feature). One layer l of expert e sends a feature vector v to the vector whose entry g is

      max (∑ f, v f * W (e, l, g, f) + B (e, l, g)) 0,

  the matrix acting on the right through its transpose (rows of W against v), and a token row is sent through layer 0
  and then layer 1 of its expert. All arithmetic is on the extended reals, where the sum of a finite family does not
  depend on an order or a grouping; the zero is the value of the all-zero float word, kept as that word.
-/
import Idealize.ShloMosaic.Lib.ValueIdx
import Idealize.ShloMosaic.PureOps.Ideal

noncomputable section

namespace Cert.ExpertStack

open Idealize.ShloMosaic Idealize.ShloMosaic.ValueIdx

/-- The tokens, grouped by expert. -/
abbrev Tokens : Shape := ⟨3, ![16, 32768, 128]⟩
/-- The weights: expert, layer, output feature, input feature. -/
abbrev Weights : Shape := ⟨4, ![16, 2, 128, 128]⟩
/-- The biases: expert, layer, output feature. -/
abbrev Biases : Shape := ⟨3, ![16, 2, 128]⟩

/-- Entry g of layer l of expert e applied to the feature vector v. -/
def layer (w : Weights.Idx → EReal) (b : Biases.Idx → EReal) (e : Fin 16) (l : Fin 2) (v : Fin 128 → EReal) (g : Fin 128) : EReal :=
  max (∑ f : Fin 128, v f * w (ix4 e l g f) + b (ix3 e l g)) (Ideal.ofBits .f32 0x00000000#32)

/-- Entry g of what row n of expert e becomes: layer 0, then layer 1. -/
def stackAt (xs : Tokens.Idx → EReal) (w : Weights.Idx → EReal) (b : Biases.Idx → EReal) (e : Fin 16) (n : Fin 32768) (g : Fin 128) : EReal :=
  layer w b e 1 (fun f => layer w b e 0 (fun k => xs (ix3 e n k)) f) g

/-- The whole result, an array of the tokens' shape. -/
def stack (xs : Tokens.Idx → EReal) (w : Weights.Idx → EReal) (b : Biases.Idx → EReal) : Tokens.Idx → EReal :=
  fun j => stackAt xs w b (j 0) (j 1) (j 2)

theorem stack_apply (xs : Tokens.Idx → EReal) (w : Weights.Idx → EReal) (b : Biases.Idx → EReal) (e : Fin 16) (n : Fin 32768) (g : Fin 128) :
    stack xs w b (ix3 e n g) = stackAt xs w b e n g := rfl

end Cert.ExpertStack

end
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.LibDenseNT.lean ====
/-
  One dense layer with a clamp at zero, as a vector unit spells it, read at an entry at the ideal values: the product
  of an [M, K] matrix with the transpose of an [N, K] matrix into the zero accumulator, plus a length-N bias re-laid as one
  row and repeated down the M rows, the whole clamped below by the splat of the zero word. Entry (p, g) is

      max (∑ k, A (p, k) * B (g, k) + bias g) 0.

  Also two casts that drop leading unit axes, read at an index written by coordinates: [1, 1, a, b] to [a, b] and
  [1, 1, a] to [a].
-/
import proofs.«154061_j30004641530482_2_alg».proof.Proof.LibDotNT

noncomputable section

namespace Cert.LibDenseNT

open Idealize.ShloMosaic Idealize.ShloMosaic.ValueIdx

variable {α : Type}

/-- A [1, 1, a, b] array cast to [a, b] reads, at (i, j), the operand at (0, 0, i, j): both have row-major position
    i * b + j. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Entry (p, g) of the clamped dense layer: rows of the left matrix against rows of the right one, plus the bias of
    column g, clamped below at the value of the zero word. -/
theorem denseReluNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (bias : FVec Ideal ⟨1, ![N]⟩ .f32)
    (h1 : (⟨1, ![N]⟩ : Shape).ShapeCasts ⟨2, ![1, N]⟩) (hb : (⟨2, ![1, N]⟩ : Shape).Broadcasts ⟨2, ![M, N]⟩)
    (p : Fin M) (g : Fin N) :
    maximumf (addf (matmul D prec lhs rhs (constant ⟨2, ![M, N]⟩ .f32 0x00000000#32))
        (broadcastTo ⟨2, ![M, N]⟩ (shapeCast ⟨2, ![1, N]⟩ bias h1) hb))
      (broadcast ⟨2, ![M, N]⟩ (Scalar.ofBits (F := Ideal) .f32 0x00000000#32)) (ix2 p g)
    = max (∑ k : Fin K, lhs (ix2 p k) * rhs (ix2 g k) + bias (ix1 g)) (Ideal.ofBits .f32 0x00000000#32) := by
  rw [maximumf_apply, addf_apply, Cert.LibDotNT.matmulNT_apply D hlc hrc hln hrn hlb hrb, broadcastTo_1b_ab_apply,
    shapeCast_a_1a_apply, broadcast_apply]
  rfl

end Cert.LibDenseNT

end
-- ==== Proof.Payload.lean ====
/-
  What the kernel body stores, entry by entry. The body loads a block of 8192 token rows (as [1, 8192, 128]), the two
  weight matrices of its expert (each [1, 1, 128, 128]) and the two bias rows (each [1, 1, 128]); it drops the unit axes,
  multiplies the rows by the transpose of the first matrix into a zero accumulator, adds the first bias row to every row,
  clamps at zero, and does the same again with the second matrix and bias. Changes of float format are the identity on
  the extended reals. So entry (u, p, g) of the stored [1, 8192, 128] value is

      max (∑ f, (max (∑ k, X (0, p, k) * W0 (0, 0, f, k) + B0 (0, 0, f)) 0) * W1 (0, 0, g, f) + B1 (0, 0, g)) 0.
-/
import proofs.«154061_j30004641530482_2_alg».proof.Proof.LibDenseNT
import proofs.«154061_j30004641530482_2_alg».proof.Proof.Gen.KernelIdeal.Skeleton

noncomputable section

namespace Cert.ExpertStack.Kernel

open Idealize.ShloMosaic Idealize.ShloMosaic.ValueIdx
open Cert.KernelIdeal Cert.KernelIdeal.Gen

/-- One clamped dense layer of the body at entry (p, g): rows of the left operand against rows of the right one, plus
    the bias at g. -/
theorem dense_apply {φ₁ φ₂ : FTy} (lhs : FVec Ideal S8192x128 φ₁) (rhs : FVec Ideal S128x128 φ₂) (bias : FVec Ideal S128 .f32)
    (p : Fin 8192) (g : Fin 128) :
    maximumf (addf (matmul dot_S8192x128_S128x128_S8192x128_1_1_0_0_n_n none lhs rhs (constant S8192x128 .f32 0x00000000#32))
        (broadcastTo S8192x128 (shapeCast S1x128 bias Facts₀.shapeCasts_S128_S1x128) Facts₀.broadcasts_S1x128_S8192x128))
      (broadcast S8192x128 (Scalar.ofBits (F := Ideal) .f32 0x00000000#32)) (ix2 p g)
    = max (∑ k : Fin 128, lhs (ix2 p k) * rhs (ix2 g k) + bias (ix1 g)) (Ideal.ofBits .f32 0x00000000#32) :=
  Cert.LibDenseNT.denseReluNT_apply dot_S8192x128_S128x128_S8192x128_1_1_0_0_n_n rfl rfl rfl rfl rfl rfl none lhs rhs bias
    Facts₀.shapeCasts_S128_S1x128 Facts₀.broadcasts_S1x128_S8192x128 p g

/-- The stored value at entry (u, p, g), from the body's five loads. -/
theorem payload_apply (v0 : FVec Ideal S1x8192x128 .f32) (v3 v5 : FVec Ideal S1x1x128x128 .bf16) (v7 v9 : FVec Ideal S1x1x128 .f32)
    (u : Fin 1) (p : Fin 8192) (g : Fin 128) :
    k0_pay1 (F := Ideal) v0 v3 v5 v7 v9 (ix3 u p g)
      = max (∑ f : Fin 128,
          (max (∑ k : Fin 128, v0 (ix3 (0 : Fin 1) p k) * v3 (ix4 (0 : Fin 1) (0 : Fin 1) f k)
              + v7 (ix3 (0 : Fin 1) (0 : Fin 1) f)) (Ideal.ofBits .f32 0x00000000#32))
            * v5 (ix4 (0 : Fin 1) (0 : Fin 1) g f)
          + v9 (ix3 (0 : Fin 1) (0 : Fin 1) g)) (Ideal.ofBits .f32 0x00000000#32) := by
  unfold k0_pay1
  rw [shapeCast_ab_1ab_apply, dense_apply]
  simp only [truncf_apply, dense_apply, shapeCast_1ab_ab_apply, Cert.LibDenseNT.shapeCast_11ab_ab_apply,
    Cert.LibDenseNT.shapeCast_11a_a_apply]

end Cert.ExpertStack.Kernel

end
-- ==== Proof.BlockValue.lean ====
/-
  From the blocks to the array. The grid has 16 x 4 points; point (e, q) works on rows q * 8192 … q * 8192 + 8191 of
  expert e: its token block is that band of the re-laid tokens, its weight and bias blocks are the whole slabs (e, ·, ·, ·)
  and (e, ·, ·) of the weights and biases, and the block it writes back is the same band of the result. Entry (u, p, g)
  of the written block is therefore the expert stack at (e, q * 8192 + p, g): the body's stored value read at that
  entry, with each load read where its window's block sits in its array (block index times block size plus the
  coordinate inside the block). The 64 bands tile the [16, 32768, 128] result — row n of expert e lies in the band of
  point (e, n / 8192) — so after the last write-back the array is the expert stack of the arrays the region found.
  The program then re-lays that array as [524288, 128].
-/
import proofs.«154061_j30004641530482_2_alg».proof.Proof.Spec
import proofs.«154061_j30004641530482_2_alg».proof.Proof.Payload
import proofs.«154061_j30004641530482_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.ExpertStack.Kernel

open Idealize.ShloMosaic Idealize.ShloMosaic.TcCoe Idealize.SL.Sem Idealize.ShloMosaic.ValueIdx
open Idealize.ShloMosaic.Pipeline (Dat)
open Cert.KernelIdeal Cert.KernelIdeal.Gen Cert.ExpertStack

/-! ## One block, over any contents -/

theorem zeros3 : (![0, 0, 0] : Fin 3 → Nat) = fun _ => 0 := funext fun a => by fin_cases a <;> rfl

/-- If the token block holds rows of the tokens of expert e starting where row p of the block is row n, and the
    weight and bias blocks hold the slabs of expert e, then entry (u, p, g) of what the body leaves is the expert stack at
    (e, n, g). -/
theorem block_entry_of (x0 : Vec Ideal S1x8192x128 .f32) (x1 : Vec Ideal S1x2x128x128 .bf16) (x2 : Vec Ideal S1x2x128 .f32)
    (xs : Tokens.Idx → EReal) (w : Weights.Idx → EReal) (b : Biases.Idx → EReal) (e : Fin 16) (n : Fin 32768) (p : Fin 8192)
    (h0 : ∀ k : Fin 128, x0 (ix3 (0 : Fin 1) p k) = xs (ix3 e n k))
    (h1 : ∀ (l : Fin 2) (g f : Fin 128), x1 (ix4 (0 : Fin 1) l g f) = w (ix4 e l g f))
    (h2 : ∀ (l : Fin 2) (g : Fin 128), x2 (ix3 (0 : Fin 1) l g) = b (ix3 e l g))
    (u : Fin 1) (g : Fin 128) :
    out0_3 (F := Ideal) x0 x1 x2 (ix3 u p g) = stack xs w b (ix3 e n g) := by
  have w0 : ∀ f k : Fin 128, View.ld x1 r0_1 (ix4 (0 : Fin 1) (0 : Fin 1) f k) = w (ix4 e (0 : Fin 2) f k) := fun f k => by
    rw [← h1]
    show x1 (r0_1.idx (ix4 (0 : Fin 1) (0 : Fin 1) f k)) = _
    refine congrArg x1 (funext fun a => Fin.ext ?_)
    match a with
    | ⟨0, _⟩ => rfl
    | ⟨1, _⟩ => rfl
    | ⟨2, _⟩ => show 0 + 1 * f.val = f.val; omega
    | ⟨3, _⟩ => show 0 + 1 * k.val = k.val; omega
  have w1 : ∀ g f : Fin 128, View.ld x1 r0_2 (ix4 (0 : Fin 1) (0 : Fin 1) g f) = w (ix4 e (1 : Fin 2) g f) := fun g f => by
    rw [← h1]
    show x1 (r0_2.idx (ix4 (0 : Fin 1) (0 : Fin 1) g f)) = _
    refine congrArg x1 (funext fun a => Fin.ext ?_)
    match a with
    | ⟨0, _⟩ => rfl
    | ⟨1, _⟩ => rfl
    | ⟨2, _⟩ => show 0 + 1 * g.val = g.val; omega
    | ⟨3, _⟩ => show 0 + 1 * f.val = f.val; omega
  have b0 : ∀ f : Fin 128, View.ld x2 r0_3 (ix3 (0 : Fin 1) (0 : Fin 1) f) = b (ix3 e (0 : Fin 2) f) := fun f => by
    rw [← h2]
    show x2 (r0_3.idx (ix3 (0 : Fin 1) (0 : Fin 1) f)) = _
    refine congrArg x2 (funext fun a => Fin.ext ?_)
    match a with
    | ⟨0, _⟩ => rfl
    | ⟨1, _⟩ => rfl
    | ⟨2, _⟩ => show 0 + 1 * f.val = f.val; omega
  have b1 : ∀ g : Fin 128, View.ld x2 r0_4 (ix3 (0 : Fin 1) (0 : Fin 1) g) = b (ix3 e (1 : Fin 2) g) := fun g => by
    rw [← h2]
    show x2 (r0_4.idx (ix3 (0 : Fin 1) (0 : Fin 1) g)) = _
    refine congrArg x2 (funext fun a => Fin.ext ?_)
    match a with
    | ⟨0, _⟩ => rfl
    | ⟨1, _⟩ => rfl
    | ⟨2, _⟩ => show 0 + 1 * g.val = g.val; omega
  unfold out0_3
  rw [View.canon_unit_zero zeros3, View.ld_unit_zero (S := S1x8192x128) zeros3, payload_apply, stack_apply]
  unfold stackAt layer
  simp only [h0, w0, w1, b0, b1]

/-! ## The blocks of the run -/

variable (m : (ℓ : Loc nD τ sig) → Buf (Elt Ideal) ℓ) (ρ : Dev nD → PrngReg)

/-- The index maps, decided over the 64 points: the token block moves with the written block on the expert and band
    axes; the weight and bias blocks follow the expert axis only; the written block's expert index is below 16, its band
    index below 4, and nothing moves along the features. -/
theorem index_facts : ∀ t : Fin cfg0.N,
      win0_0.index t (0 : Fin 3) = win0_3.index t (0 : Fin 3)
    ∧ win0_0.index t (1 : Fin 3) = win0_3.index t (1 : Fin 3)
    ∧ win0_0.index t (2 : Fin 3) = 0
    ∧ win0_1.index t (0 : Fin 4) = win0_3.index t (0 : Fin 3)
    ∧ win0_1.index t (1 : Fin 4) = 0 ∧ win0_1.index t (2 : Fin 4) = 0 ∧ win0_1.index t (3 : Fin 4) = 0
    ∧ win0_2.index t (0 : Fin 3) = win0_3.index t (0 : Fin 3)
    ∧ win0_2.index t (1 : Fin 3) = 0 ∧ win0_2.index t (2 : Fin 3) = 0
    ∧ win0_3.index t (0 : Fin 3) < 16 ∧ win0_3.index t (1 : Fin 3) < 4 ∧ win0_3.index t (2 : Fin 3) = 0 :=
  (by decide +kernel : ∀ t : Fin grid0.N, _)

/-- Every (expert, band) pair is some point's. -/
theorem index_onto : ∀ (e : Fin 16) (q : Fin 4), ∃ t : Fin cfg0.N, win0_3.index t = ![e.val, q.val, 0] :=
  (by decide +kernel : ∀ (e : Fin 16) (q : Fin 4), ∃ t : Fin grid0.N, win0_3.index t = ![e.val, q.val, 0])

/-- Row p of the token block at point t is row (band index) * 8192 + p of the block's expert. -/
theorem tokens_block (c : Dev nD) (t : Fin cfg0.N) (e : Fin 16) (n : Fin 32768) (p : Fin 8192) (k : Fin 128)
    (he : win0_0.index t (0 : Fin 3) = e.val) (hn : win0_0.index t (1 : Fin 3) * 8192 + p.val = n.val)
    (hz : win0_0.index t (2 : Fin 3) = 0) :
    (iblk m c 0 t : FVec Ideal S1x8192x128 .f32) (ix3 (0 : Fin 1) p k) = (V m c main_v0 : Tokens.Idx → EReal) (ix3 e n k) := by
  show V m c main_v0 (((cfg0.win 0).blk t).view.emb (ix3 (0 : Fin 1) p k)) = V m c main_v0 (ix3 e n k)
  have h : ((cfg0.win 0).blk t).view.emb (ix3 (0 : Fin 1) p k) = ix3 e n k := by
    funext a; apply Fin.ext
    match a with
    | ⟨0, _⟩ => show win0_0.index t (0 : Fin 3) * 1 + 1 * 0 = e.val; omega
    | ⟨1, _⟩ => show win0_0.index t (1 : Fin 3) * 8192 + 1 * p.val = n.val; omega
    | ⟨2, _⟩ => show win0_0.index t (2 : Fin 3) * 128 + 1 * k.val = k.val; omega
  rw [h]

/-- The weight block at point t is the slab of its expert. -/
theorem weights_block (c : Dev nD) (t : Fin cfg0.N) (e : Fin 16) (l : Fin 2) (g f : Fin 128)
    (he : win0_1.index t (0 : Fin 4) = e.val) (h1 : win0_1.index t (1 : Fin 4) = 0) (h2 : win0_1.index t (2 : Fin 4) = 0)
    (h3 : win0_1.index t (3 : Fin 4) = 0) :
    (iblk m c 1 t : FVec Ideal S1x2x128x128 .bf16) (ix4 (0 : Fin 1) l g f) = (V m c main_v1 : Weights.Idx → EReal) (ix4 e l g f) := by
  show V m c main_v1 (((cfg0.win 1).blk t).view.emb (ix4 (0 : Fin 1) l g f)) = V m c main_v1 (ix4 e l g f)
  have h : ((cfg0.win 1).blk t).view.emb (ix4 (0 : Fin 1) l g f) = ix4 e l g f := by
    funext a; apply Fin.ext
    match a with
    | ⟨0, _⟩ => show win0_1.index t (0 : Fin 4) * 1 + 1 * 0 = e.val; omega
    | ⟨1, _⟩ => show win0_1.index t (1 : Fin 4) * 2 + 1 * l.val = l.val; omega
    | ⟨2, _⟩ => show win0_1.index t (2 : Fin 4) * 128 + 1 * g.val = g.val; omega
    | ⟨3, _⟩ => show win0_1.index t (3 : Fin 4) * 128 + 1 * f.val = f.val; omega
  rw [h]

/-- The bias block at point t is the slab of its expert. -/
theorem biases_block (c : Dev nD) (t : Fin cfg0.N) (e : Fin 16) (l : Fin 2) (g : Fin 128)
    (he : win0_2.index t (0 : Fin 3) = e.val) (h1 : win0_2.index t (1 : Fin 3) = 0) (h2 : win0_2.index t (2 : Fin 3) = 0) :
    (iblk m c 2 t : FVec Ideal S1x2x128 .f32) (ix3 (0 : Fin 1) l g) = (V m c main_arg2 : Biases.Idx → EReal) (ix3 e l g) := by
  show V m c main_arg2 (((cfg0.win 2).blk t).view.emb (ix3 (0 : Fin 1) l g)) = V m c main_arg2 (ix3 e l g)
  have h : ((cfg0.win 2).blk t).view.emb (ix3 (0 : Fin 1) l g) = ix3 e l g := by
    funext a; apply Fin.ext
    match a with
    | ⟨0, _⟩ => show win0_2.index t (0 : Fin 3) * 1 + 1 * 0 = e.val; omega
    | ⟨1, _⟩ => show win0_2.index t (1 : Fin 3) * 2 + 1 * l.val = l.val; omega
    | ⟨2, _⟩ => show win0_2.index t (2 : Fin 3) * 128 + 1 * g.val = g.val; omega
  rw [h]

/-- The expert stack of the arrays the region finds: what the result array is to hold. -/
abbrev target (c : Dev nD) : Tokens.Idx → EReal :=
  stack (V m c main_v0) (V m c main_v1) (V m c main_arg2)

/-- What point t writes back is block t of the expert stack of the arrays the region finds. -/
theorem flushed_eq (c : Dev nD) (t : Fin cfg0.N) :
    (dats m 0 c).flushed 3 t = ((cfg0.win 3).blk t).view.read (Elt Ideal) (target m c) := by
  show (cfg0.win 3).cut (grid0.coords t) ((dats m 0 c).after 3 t) = _
  rw [after0_3]
  funext j
  obtain ⟨u, p, g, rfl⟩ : ∃ (u : Fin 1) (p : Fin 8192) (g : Fin 128), j = ix3 u p g := ⟨j 0, j 1, j 2, eq_ix3 j⟩
  obtain ⟨e0, e1, e2, e3, e4, e5, e6, e7, e8, e9, e10, e11, e12⟩ := index_facts t
  have hp := p.isLt
  show out0_3 (iblk m c 0 t) (iblk m c 1 t) (iblk m c 2 t) (ix3 u p g)
      = target m c (((cfg0.win 3).blk t).view.emb (ix3 u p g))
  have hemb : ((cfg0.win 3).blk t).view.emb (ix3 u p g)
      = ix3 (⟨win0_3.index t (0 : Fin 3), e10⟩ : Fin 16) (⟨win0_3.index t (1 : Fin 3) * 8192 + p.val, by omega⟩ : Fin 32768) g := by
    funext a; apply Fin.ext
    have hu : u.val = 0 := by omega
    match a with
    | ⟨0, _⟩ => show win0_3.index t (0 : Fin 3) * 1 + 1 * u.val = win0_3.index t (0 : Fin 3); omega
    | ⟨1, _⟩ => show win0_3.index t (1 : Fin 3) * 8192 + 1 * p.val = win0_3.index t (1 : Fin 3) * 8192 + p.val; omega
    | ⟨2, _⟩ => show win0_3.index t (2 : Fin 3) * 128 + 1 * g.val = g.val; omega
  rw [hemb]
  exact block_entry_of (iblk m c 0 t) (iblk m c 1 t) (iblk m c 2 t) (V m c main_v0) (V m c main_v1) (V m c main_arg2)
    ⟨win0_3.index t (0 : Fin 3), e10⟩ ⟨win0_3.index t (1 : Fin 3) * 8192 + p.val, by omega⟩ p
    (fun k => tokens_block m c t _ _ p k e0 (by show win0_0.index t (1 : Fin 3) * 8192 + p.val = win0_3.index t (1 : Fin 3) * 8192 + p.val; omega) e2)
    (fun l g f => weights_block m c t _ l g f e3 e4 e5 e6)
    (fun l g => biases_block m c t _ l g e7 e8 e9) u g

/-- An index of the result array is in point t's block iff each coordinate is in the block's range on its axis. -/
theorem mem_block (t : Fin cfg0.N) (i : S16x32768x128.Idx) :
    i ∈ ((cfg0.win 3).blk t).view.set ↔ ∀ a : Fin 3, win0_3.index t a * S1x8192x128.size a ≤ (i a).val
      ∧ (i a).val < win0_3.index t a * S1x8192x128.size a + S1x8192x128.size a := by
  show i ∈ ((View.whole main_v2).slice (win0_3.rect t)).set ↔ _
  rw [View.set_slice_whole, Rect.mem_set_unit]
  exact Iff.rfl

/-- The 64 bands tile the result array: row n of expert e is in the band of the point with indices (e, n / 8192). -/
theorem covered (i : S16x32768x128.Idx) :
    ∃ t : Fin cfg0.N, (cfg0.win 3).flush t = true ∧ i ∈ ((cfg0.win 3).blk t).view.set := by
  have h0 : (i 0).val < 16 := (i 0).isLt
  have h1 : (i 1).val < 32768 := (i 1).isLt
  have h2 : (i 2).val < 128 := (i 2).isLt
  obtain ⟨t, ht⟩ := index_onto ⟨(i 0).val, h0⟩ ⟨(i 1).val / 8192, by omega⟩
  have q0 : win0_3.index t (0 : Fin 3) = (i 0).val := congrFun ht 0
  have q1 : win0_3.index t (1 : Fin 3) = (i 1).val / 8192 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8192 ≤ (i 1).val ∧ (i 1).val < win0_3.index t (1 : Fin 3) * 8192 + 8192; omega
  | ⟨2, _⟩ => show win0_3.index t (2 : Fin 3) * 128 ≤ (i 2).val ∧ (i 2).val < win0_3.index t (2 : Fin 3) * 128 + 128; omega

/-- The result array after the last write-back is the expert stack of the arrays the region found. -/
theorem array_after (c : Dev nD) : (dats m 0 c).arrAt 3 cfg0.N = target m c :=
  (dats m 0 c).arrAt_eq_of_cover 3 (target m c) (fun t _ => flushed_eq m c t) covered

/-! ## The arrays the region finds, the line after it, and the run -/

/-- The region finds the tokens re-laid as [16, 32768, 128]. -/
theorem entry_tokens (c : Dev nD) :
    (V m c main_v0 : Tokens.Idx → EReal)
      = shapeCast S16x32768x128 (m ((c : Thread nD τ).loc main_arg0)) Facts₀.shapeCasts_S524288x128_S16x32768x128 := by
  show StableHlo.after hostOps0 (fun b => m (c, b)) (Proc.devRef .tc main_v0) = _
  after_results
  rfl

/-- It finds the weights as launched: the change of float format before the region is the identity on the extended reals. -/
theorem entry_weights (c : Dev nD) :
    (V m c main_v1 : Weights.Idx → EReal) = m ((c : Thread nD τ).loc main_arg1) := by
  show StableHlo.after hostOps0 (fun b => m (c, b)) (Proc.devRef .tc main_v1) = _
  after_results
  rfl

/-- The expert stack of the launch arrays (the tokens re-laid), re-laid back as [524288, 128]: the program's result. -/
abbrev result (c : Dev nD) : S524288x128.Idx → EReal :=
  shapeCast S524288x128
    (stack (shapeCast S16x32768x128 (m ((c : Thread nD τ).loc main_arg0)) Facts₀.shapeCasts_S524288x128_S16x32768x128)
      (m ((c : Thread nD τ).loc main_arg1)) (m ((c : Thread nD τ).loc main_arg2)))
    Facts₀.shapeCasts_S16x32768x128_S524288x128

/-- The arrays the region finds, in terms of the launch arrays. -/
theorem target_eq (c : Dev nD) :
    target m c = stack (shapeCast S16x32768x128 (m ((c : Thread nD τ).loc main_arg0)) Facts₀.shapeCasts_S524288x128_S16x32768x128)
      (m ((c : Thread nD τ).loc main_arg1)) (m ((c : Thread nD τ).loc main_arg2)) := by
  show stack (V m c main_v0) (V m c main_v1) (V m c main_arg2) = _
  rw [entry_tokens, entry_weights, V_main_arg2]

/-- The one line after the region re-lays the result array: the program's result is the expert stack, re-laid. -/
theorem tail_value (c : Dev nD) :
    Pipeline.afterTail₀ cfgs (dats m) 0 (V0 m) [hostOps1] c main_v3 = result m c := by
  have hw : Pipeline.withArrays (cfgs 0).spec c (V0 m c) (fun w => (dats m 0 c).arrAt w (cfgs 0).N) (Proc.devRef .tc main_v2)
      = stack (shapeCast S16x32768x128 (m ((c : Thread nD τ).loc main_arg0)) Facts₀.shapeCasts_S524288x128_S16x32768x128)
          (m ((c : Thread nD τ).loc main_arg1)) (m ((c : Thread nD τ).loc main_arg2)) :=
    ((Pipeline.withArrays_arr spec0 launch0.win.arr_inj c _ _ 3).trans (array_after m c)).trans (target_eq m c)
  unfold Pipeline.afterTail₀
  show StableHlo.after hostOps1 _ (Proc.devRef .tc main_v3) = _
  after_results
  rw [hw]
  rfl

/-- Every weakly fair execution of the idealized kernel program terminates with its result at the expert stack of the
    launch arrays, re-laid, and with the three arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.ExpertStack.Kernel

end
-- ==== Proof.RefValue.lean ====
/-
  The reference is the expert stack. Its program re-lays the tokens as [16, 32768, 128] (a reshape, kept here as the one
  function of the argument it is), and then, per layer l: slices the weights of layer l out of [16, 2, 128, 128] and
  drops the unit axis, contracts the tokens' feature axis with the weights' input-feature axis expert by expert,
  adds the bias of layer l (sliced, re-laid and repeated down the rows) and clamps at zero. Read at an entry
  (e, n, g), the contraction is a sum over the 128 input features of the row's entry times W (e, l, g, ·), the bias read
  is B (e, l, g): layer l of expert e of the specification. The index equations are arithmetic on row-major positions
  (position ((e * 128 + g) * 128 + f) of [16, 128, 128] is (e, 0, g, f) of [16, 1, 128, 128], and so on).
-/
import proofs.«154061_j30004641530482_2_alg».proof.Proof.Spec
import proofs.«154061_j30004641530482_2_alg».proof.Proof.Gen.ReferenceIdeal.Read

noncomputable section

namespace Cert.ExpertStack.Reference

open Idealize.ShloMosaic Idealize.ShloMosaic.ValueIdx
open Cert.ReferenceIdeal Cert.ReferenceIdeal.Read Cert.ExpertStack

variable (x0 : (⟨S524288x128, .f32⟩ : BufTy).Contents (Elt Ideal)) (x1 : (⟨S16x2x128x128, .f32⟩ : BufTy).Contents (Elt Ideal))
  (x2 : (⟨S16x2x128, .f32⟩ : BufTy).Contents (Elt Ideal))

/-- The weights the first contraction reads at (e, f, k) are W (e, 0, f, k). -/
theorem weights0 (e : Fin 16) (f k : Fin 128) :
    val_main_v2 (F := Ideal) x1 (ix3 e f k) = x1 (ix4 e (0 : Fin 2) f k) := by
  rw [val_main_v2_apply, val_main_v1_apply]
  refine congrArg x1 (funext fun a => Fin.ext ?_)
  have he := e.isLt; have hf := f.isLt; have hk := k.isLt
  match a with
  | ⟨0, _⟩ => show ((e.val * 128 + f.val) * 128 + k.val) / 16384 = e.val; omega
  | ⟨1, _⟩ => rfl
  | ⟨2, _⟩ => show ((e.val * 128 + f.val) * 128 + k.val) / 128 % 128 = f.val; omega
  | ⟨3, _⟩ => show ((e.val * 128 + f.val) * 128 + k.val) % 128 = k.val; omega

/-- The weights the second contraction reads at (e, g, f) are W (e, 1, g, f). -/
theorem weights1 (e : Fin 16) (g f : Fin 128) :
    val_main_v11 (F := Ideal) x1 (ix3 e g f) = x1 (ix4 e (1 : Fin 2) g f) := by
  rw [val_main_v11_apply, val_main_v10_apply]
  refine congrArg x1 (funext fun a => Fin.ext ?_)
  have he := e.isLt; have hg := g.isLt; have hf := f.isLt
  match a with
  | ⟨0, _⟩ => show ((e.val * 128 + g.val) * 128 + f.val) / 16384 = e.val; omega
  | ⟨1, _⟩ => rfl
  | ⟨2, _⟩ => show ((e.val * 128 + g.val) * 128 + f.val) / 128 % 128 = g.val; omega
  | ⟨3, _⟩ => show ((e.val * 128 + g.val) * 128 + f.val) % 128 = f.val; omega

/-- The bias the first layer adds at (e, n, f) is B (e, 0, f). -/
theorem bias0 (e : Fin 16) (n : Fin 32768) (f : Fin 128) :
    val_main_v7 (F := Ideal) x2 (ix3 e n f) = x2 (ix3 e (0 : Fin 2) f) := by
  rw [val_main_v7_apply, val_main_v6_apply, val_main_v5_apply, val_main_v4_apply]
  refine congrArg x2 (funext fun a => Fin.ext ?_)
  have he := e.isLt; have hf := f.isLt
  match a with
  | ⟨0, _⟩ => show (e.val * 128 + f.val) / 128 = e.val; omega
  | ⟨1, _⟩ => rfl
  | ⟨2, _⟩ => show (e.val * 128 + f.val) % 128 = f.val; omega

/-- The bias the second layer adds at (e, n, g) is B (e, 1, g). -/
theorem bias1 (e : Fin 16) (n : Fin 32768) (g : Fin 128) :
    val_main_v16 (F := Ideal) x2 (ix3 e n g) = x2 (ix3 e (1 : Fin 2) g) := by
  rw [val_main_v16_apply, val_main_v15_apply, val_main_v14_apply, val_main_v13_apply]
  refine congrArg x2 (funext fun a => Fin.ext ?_)
  have he := e.isLt; have hg := g.isLt
  match a with
  | ⟨0, _⟩ => show (e.val * 128 + g.val) / 128 = e.val; omega
  | ⟨1, _⟩ => rfl
  | ⟨2, _⟩ => show (e.val * 128 + g.val) % 128 = g.val; omega

/-- After the first clamp the reference holds layer 0 of each row's expert applied to the row. -/
theorem hidden (e : Fin 16) (n : Fin 32768) (f : Fin 128) :
    val_main_v9 (F := Ideal) x0 x1 x2 (ix3 e n f)
      = layer x1 x2 e 0 (fun k => val_main_v0 (F := Ideal) x0 (ix3 e n k)) f := by
  rw [val_main_v9_apply, val_main_v8_apply, val_main_v3_apply, bias0, val_main_call0_v0_apply, val_main_call0_cst_apply]
  have hl : ∀ k : Fin 128, lidx_main_v3 (ix3 e n f) k = ix3 e n k := fun k => funext fun a => Fin.ext (by
    match a with
    | ⟨0, _⟩ => rfl
    | ⟨1, _⟩ => rfl
    | ⟨2, _⟩ => rfl)
  have hr : ∀ k : Fin 128, ridx_main_v3 (ix3 e n f) k = ix3 e f k := fun k => funext fun a => Fin.ext (by
    match a with
    | ⟨0, _⟩ => rfl
    | ⟨1, _⟩ => rfl
    | ⟨2, _⟩ => rfl)
  simp only [hl, hr, weights0]
  rfl

/-- After the second clamp it holds layer 1 applied to what the first left. -/
theorem output (e : Fin 16) (n : Fin 32768) (g : Fin 128) :
    val_main_v18 (F := Ideal) x0 x1 x2 (ix3 e n g)
      = layer x1 x2 e 1 (fun f => val_main_v9 (F := Ideal) x0 x1 x2 (ix3 e n f)) g := by
  rw [val_main_v18_apply, val_main_v17_apply, val_main_v12_apply, bias1, val_main_call1_v0_apply, val_main_call1_cst_apply]
  have hl : ∀ f : Fin 128, lidx_main_v12 (ix3 e n g) f = ix3 e n f := fun f => funext fun a => Fin.ext (by
    match a with
    | ⟨0, _⟩ => rfl
    | ⟨1, _⟩ => rfl
    | ⟨2, _⟩ => rfl)
  have hr : ∀ f : Fin 128, ridx_main_v12 (ix3 e n g) f = ix3 e g f := fun f => funext fun a => Fin.ext (by
    match a with
    | ⟨0, _⟩ => rfl
    | ⟨1, _⟩ => rfl
    | ⟨2, _⟩ => rfl)
  simp only [hl, hr, weights1]
  rfl

/-- The array the reference holds before its last reshape is the expert stack of the re-laid tokens. -/
theorem value : val_main_v18 (F := Ideal) x0 x1 x2 = stack (val_main_v0 (F := Ideal) x0) x1 x2 := by
  funext j
  obtain ⟨e, n, g, rfl⟩ : ∃ (e : Fin 16) (n : Fin 32768) (g : Fin 128), j = ix3 e n g := ⟨j 0, j 1, j 2, eq_ix3 j⟩
  rw [stack_apply, output]
  exact congrArg (fun v => layer x1 x2 e 1 v g) (funext fun f => hidden x0 x1 x2 e n f)

end Cert.ExpertStack.Reference

end
-- ==== Proof.lean ====
/-
  Sixteen experts, two dense layers each, over 524288 token rows of 128 features: row r belongs to expert r / 32768,
  and is sent to

      max (∑ f, (max (∑ k, x (r, k) * W (e, 0, f, k) + b (e, 0, f)) 0) * W (e, 1, g, f) + b (e, 1, g)) 0

  at output feature g. The kernel program re-lays the tokens as [16, 32768, 128], runs a 16 x 4 grid whose point (e, q)
  sends a band of 8192 rows of expert e through both layers with the expert's two weight matrices and bias rows, and
  re-lays the result back; the reference program does the same two layers as whole-array contractions expert by
  expert. On the extended reals the changes of float format are the identity and a finite sum does not depend on how it
  is tiled, so both programs end at ONE function of the arguments (Proof/Spec.lean): the kernel because each band it
  writes is that function's band and the 64 bands tile the array (Proof/Payload.lean, Proof/BlockValue.lean), the
  reference stage by stage (Proof/RefValue.lean). Neither side uses that the inputs are finite: no term is moved across
  a sum, only the same sums are read in the same order.

  The three frames are the generated ones (the reference's is its generated run with the result dropped); the
  idealization rewrote nothing, so there is nothing to preserve.
-/
import proofs.«154061_j30004641530482_2_alg».proof.Defs
import proofs.«154061_j30004641530482_2_alg».proof.Proof.Gen.Kernel
import proofs.«154061_j30004641530482_2_alg».proof.Proof.Gen.Kernel.Skeleton
import proofs.«154061_j30004641530482_2_alg».proof.Proof.Gen.Kernel.Launch
import proofs.«154061_j30004641530482_2_alg».proof.Proof.Gen.Kernel.Points
import proofs.«154061_j30004641530482_2_alg».proof.Proof.Gen.Kernel.Frame
import proofs.«154061_j30004641530482_2_alg».proof.Proof.Gen.KernelIdeal
import proofs.«154061_j30004641530482_2_alg».proof.Proof.Gen.KernelIdeal.Skeleton
import proofs.«154061_j30004641530482_2_alg».proof.Proof.Gen.KernelIdeal.Launch
import proofs.«154061_j30004641530482_2_alg».proof.Proof.Gen.KernelIdeal.Points
import proofs.«154061_j30004641530482_2_alg».proof.Proof.Gen.KernelIdeal.Frame
import proofs.«154061_j30004641530482_2_alg».proof.Proof.Gen.ReferenceIdeal
import proofs.«154061_j30004641530482_2_alg».proof.Proof.Gen.ReferenceIdeal.Run
import proofs.«154061_j30004641530482_2_alg».proof.Proof.Gen.ReferenceIdeal.Read
import proofs.«154061_j30004641530482_2_alg».proof.Proof.Gen.Pre_finite_inputs
import proofs.«154061_j30004641530482_2_alg».proof.Proof.BlockValue
import proofs.«154061_j30004641530482_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end at the expert stack of the arguments:
    the kernel's run ends there by the tiling of its bands, the reference's term is that function stage by stage, and
    the agreement of the arguments makes the two spellings one term. -/
theorem algebraic : Cert.algebraic_KernelIdeal_ReferenceIdeal := by
  intro m ρ m' ρ' _ hagree
  refine ⟨fun c => Cert.ExpertStack.Kernel.result m c, Cert.ExpertStack.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq]
  unfold Cert.ReferenceIdeal.Read.val_main_v19
  rw [Cert.ExpertStack.Reference.value, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
